-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x224x224x128 : Shape := ⟨4, ![32, 224, 224, 128]⟩
abbrev S_ : Shape := ⟨0, ![]⟩

class Facts : Prop where
  bcast_S_S32x224x224x128 : S_.BroadcastsInDim S32x224x224x128 (![] : Fin 0 → Fin S32x224x224x128.rank)
  reducesTo_S32x224x224x128_S_d0_1_2_3 : S32x224x224x128.ReducesTo [0, 1, 2, 3] S_
  h_S_ : 0 < S_.numel

variable [Facts]

def fn {F : FTy → Type} [FloatOps F] (main_arg0 : FVec F S32x224x224x128 .f32) : IVec S_ 1 :=
  let main_v0 : FVec F S32x224x224x128 .f32 := Host.absf main_arg0
  let main_cst : FVec F S_ .f32 := constant S_ .f32 0x7F800000#32
  let main_v1 : FVec F S32x224x224x128 .f32 := broadcastInDim S32x224x224x128 ![] bcast_S_S32x224x224x128 main_cst
  let main_v2 : IVec S32x224x224x128 1 := cmpf .olt main_v0 main_v1
  let main_c : IVec S_ 1 := constantI S_ 1 1#1
  let main_v3 : IVec S_ 1 := (fun x v => Host.reduce IntOp.andi x v reducesTo_S32x224x224x128_S_d0_1_2_3 h_S_) main_v2 main_c
  main_v3
-- ==== Kernel.lean ====
abbrev S32x224x224x128 : Shape := ⟨4, ![32, 224, 224, 128]⟩
abbrev S32x128 : Shape := ⟨2, ![32, 128]⟩
abbrev S8x16x224x128 : Shape := ⟨4, ![8, 16, 224, 128]⟩
abbrev S8x128 : Shape := ⟨2, ![8, 128]⟩
abbrev S8x1x224x128 : Shape := ⟨4, ![8, 1, 224, 128]⟩
abbrev S8x1x128 : Shape := ⟨3, ![8, 1, 128]⟩

abbrev nBuf : Space → Nat
  | .hbm => 2
  | .vmem => 4
  | .smem => 0
  | _ => 0

abbrev bufTy : (tb : Table) → Fin (tcTables nBuf tb) → BufTy
  | .hbm, ⟨0, _⟩ => ⟨S32x224x224x128, .f32⟩
  | .hbm, ⟨1, _⟩ => ⟨S32x128, .f32⟩
  | .local _ .vmem, ⟨0, _⟩ => ⟨S8x16x224x128, .f32⟩
  | .local _ .vmem, ⟨1, _⟩ => ⟨S8x16x224x128, .f32⟩
  | .local _ .vmem, ⟨2, _⟩ => ⟨S8x128, .f32⟩
  | .local _ .vmem, ⟨3, _⟩ => ⟨S8x128, .f32⟩
  | _, _ => ⟨S32x224x224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 14], ![false, false]⟩

def k0_cond1 (i : grid0.Coords) : BitVec 1 :=
  let arg1 : BitVec 32 := BitVec.ofNat 32 (i 1).val
  let c0_i32_63 : BitVec 32 := 0#32
  let v81 : BitVec 1 := Scalar.cmpi .eq arg1 c0_i32_63
  let v82 : BitVec 32 := Scalar.extui v81
  let c0_i32_64 : BitVec 32 := 0#32
  let v83 : BitVec 1 := Scalar.cmpi .ne v82 c0_i32_64
  v83

def k0_cond2 (i : grid0.Coords) : BitVec 1 :=
  let arg1 : BitVec 32 := BitVec.ofNat 32 (i 1).val
  let c0_i32_65 : BitVec 32 := 0#32
  let v84 : BitVec 1 := Scalar.cmpi .ne arg1 c0_i32_65
  let v85 : BitVec 32 := Scalar.extui v84
  let c0_i32_66 : BitVec 32 := 0#32
  let v86 : BitVec 1 := Scalar.cmpi .ne v85 c0_i32_66
  v86

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x16x224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x16x224x128_S8x1x224x128_0_0_0_0 : ∀ a, (![0, 0, 0, 0] : Fin 4 → Nat) a + S8x1x224x128.size a ≤ S8x16x224x128.size a
  h_S8x1x224x128 : 0 < S8x1x224x128.numel
  reduces_S8x1x224x128_S8x1x128 : S8x1x224x128.Reduces [2] S8x1x128
  shapeCasts_S8x1x128_S8x128 : S8x1x128.ShapeCasts S8x128
  inb_S8x16x224x128_S8x1x224x128_0_1_0_0 : ∀ a, (![0, 1, 0, 0] : Fin 4 → Nat) a + S8x1x224x128.size a ≤ S8x16x224x128.size a
  inb_S8x16x224x128_S8x1x224x128_0_2_0_0 : ∀ a, (![0, 2, 0, 0] : Fin 4 → Nat) a + S8x1x224x128.size a ≤ S8x16x224x128.size a
  inb_S8x16x224x128_S8x1x224x128_0_3_0_0 : ∀ a, (![0, 3, 0, 0] : Fin 4 → Nat) a + S8x1x224x128.size a ≤ S8x16x224x128.size a
  inb_S8x16x224x128_S8x1x224x128_0_4_0_0 : ∀ a, (![0, 4, 0, 0] : Fin 4 → Nat) a + S8x1x224x128.size a ≤ S8x16x224x128.size a
  inb_S8x16x224x128_S8x1x224x128_0_5_0_0 : ∀ a, (![0, 5, 0, 0] : Fin 4 → Nat) a + S8x1x224x128.size a ≤ S8x16x224x128.size a
  inb_S8x16x224x128_S8x1x224x128_0_6_0_0 : ∀ a, (![0, 6, 0, 0] : Fin 4 → Nat) a + S8x1x224x128.size a ≤ S8x16x224x128.size a
  inb_S8x16x224x128_S8x1x224x128_0_7_0_0 : ∀ a, (![0, 7, 0, 0] : Fin 4 → Nat) a + S8x1x224x128.size a ≤ S8x16x224x128.size a
  inb_S8x16x224x128_S8x1x224x128_0_8_0_0 : ∀ a, (![0, 8, 0, 0] : Fin 4 → Nat) a + S8x1x224x128.size a ≤ S8x16x224x128.size a
  inb_S8x16x224x128_S8x1x224x128_0_9_0_0 : ∀ a, (![0, 9, 0, 0] : Fin 4 → Nat) a + S8x1x224x128.size a ≤ S8x16x224x128.size a
  inb_S8x16x224x128_S8x1x224x128_0_10_0_0 : ∀ a, (![0, 10, 0, 0] : Fin 4 → Nat) a + S8x1x224x128.size a ≤ S8x16x224x128.size a
  inb_S8x16x224x128_S8x1x224x128_0_11_0_0 : ∀ a, (![0, 11, 0, 0] : Fin 4 → Nat) a + S8x1x224x128.size a ≤ S8x16x224x128.size a
  inb_S8x16x224x128_S8x1x224x128_0_12_0_0 : ∀ a, (![0, 12, 0, 0] : Fin 4 → Nat) a + S8x1x224x128.size a ≤ S8x16x224x128.size a
  inb_S8x16x224x128_S8x1x224x128_0_13_0_0 : ∀ a, (![0, 13, 0, 0] : Fin 4 → Nat) a + S8x1x224x128.size a ≤ S8x16x224x128.size a
  inb_S8x16x224x128_S8x1x224x128_0_14_0_0 : ∀ a, (![0, 14, 0, 0] : Fin 4 → Nat) a + S8x1x224x128.size a ≤ S8x16x224x128.size a
  inb_S8x16x224x128_S8x1x224x128_0_15_0_0 : ∀ a, (![0, 15, 0, 0] : Fin 4 → Nat) a + S8x1x224x128.size a ≤ S8x16x224x128.size a
  inb_S8x128_S8x128_0_0 : ∀ a, (![0, 0] : Fin 2 → Nat) a + S8x128.size a ≤ S8x128.size a
  h_S8x128 : 0 < S8x128.numel
  shapeCasts_S8x128_S8x128 : S8x128.ShapeCasts S8x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x224x128.size a ≤ S32x224x224x128.size a
  hwx0_0 : ∀ i : grid0.Coords, EltTy.bits .f32 = 32 ∨ (Rect.block (s := S32x224x224x128) S8x16x224x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x128.size a
  hwx0_1 : ∀ i : grid0.Coords, EltTy.bits .f32 = 32 ∨ (Rect.block (s := S32x128) S8x128.size (cc0_transform_1 i) (hinb0_1 i)).WholeWords (EltTy.packing .f32)

variable [Facts₀]

abbrev win0_0 : Pipeline.Window sig grid0 :=
  Pipeline.Window.ofSpec (Memref.whole main_arg0) S8x16x224x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S32x224x224x128 : Shape := ⟨4, ![32, 224, 224, 128]⟩
abbrev S_ : Shape := ⟨0, ![]⟩
abbrev S32x128 : Shape := ⟨2, ![32, 128]⟩

abbrev nBuf : Space → Nat
  | .hbm => 3
  | .vmem => 0
  | .smem => 0
  | _ => 0

abbrev bufTy : (tb : Table) → Fin (tcTables nBuf tb) → BufTy
  | .hbm, ⟨0, _⟩ => ⟨S32x224x224x128, .f32⟩
  | .hbm, ⟨1, _⟩ => ⟨S_, .f32⟩
  | .hbm, ⟨2, _⟩ => ⟨S32x128, .f32⟩
  | _, _ => ⟨S32x224x224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S32x224x224x128_S32x128_d1_2 : S32x224x224x128.ReducesTo [1, 2] S32x128
  h_S_ : 0 < S_.numel

variable [Facts₀]

class Facts : Prop extends Facts₀ where

variable [Facts]
-- ==== Proof.KPoolConds.lean ====
/-
  Max-pooling over the two spatial axes, one batch tile of 8 rows per grid row and 16 image rows per grid point:
  the grid is 4 × 14, walked row by row, so point `t` is batch tile `t / 14` and height step `t % 14`.
  The body computes the maximum over its block's 16 × 224 positions and then either overwrites the output
  block (height step 0) or folds it into what the block already holds (every later height step).
  Here: the two branch conditions as functions of the point, and that the output window is never idle.
-/
import proofs.«171184_j54056458387499_2_alg».proof.Proof.Gen.Kernel.Frame
import proofs.«171184_j54056458387499_2_alg».proof.Proof.Gen.Kernel.Skeleton

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (overwrite) is taken exactly at height step 0. -/
theorem hcond1 : ∀ t : Fin cfg0.N, k0_cond1 (grid0.coords t) = 1#1 ↔ t.val % 14 = 0 :=
  (by decide +kernel : ∀ t : Fin grid0.N, k0_cond1 (grid0.coords t) = 1#1 ↔ t.val % 14 = 0)

/-- The second branch (fold into the block) is taken exactly at the other height steps. -/
theorem hcond2 : ∀ t : Fin cfg0.N, k0_cond2 (grid0.coords t) = 1#1 ↔ ¬ t.val % 14 = 0 :=
  (by decide +kernel : ∀ t : Fin grid0.N, k0_cond2 (grid0.coords t) = 1#1 ↔ ¬ t.val % 14 = 0)

/-- One of the two branches stores at every coordinate, so the output window is idle nowhere. -/
theorem live1 : ∀ i : grid0.Coords, cfg0.idle 1 i = false :=
  (by decide +kernel : ∀ i : grid0.Coords, idle0 1 i = false)

/-- Each window's current staging memref at point `t`, as the pipeline passes it, and its wholeness. -/
abbrev ms0 (t : Fin cfg0.N) : Memref sig .tc .vmem S8x16x224x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128 .f32 := win0_1.stage (cfg0.slots t 1)
abbrev hs1 (t : Fin cfg0.N) : (ms1 t).IsWhole := hstage0_1 ((cfg0.slots t 1).cast nbuf0_1)

/-- One staging buffer of the output window, through which a buffer's contents after stores are stated. -/
abbrev VO : View sig .tc .vmem S8x128 .f32 := (Memref.whole cc0_stg1_0 : Memref sig .tc .vmem S8x128 .f32).view

end Cert.Kernel.Pool

end
-- ==== Proof.KPoolRunReset.lean ====
/-
  The body at a point of height step 0 (the overwrite case): on whole staging memrefs, the input's at its block
  and the output's at anything, the body runs to its end, leaves the input's buffer as it was and the output's
  buffer with the pieces its one store wrote.
-/
import proofs.«171184_j54056458387499_2_alg».proof.Proof.KPoolConds

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output's buffer ends with in the overwrite case, with the run that finds them. -/
noncomputable def runReset (c : Dev nD) (i : grid0.Coords) (arg2 : Memref sig .tc .vmem S8x16x224x128 .f32) (harg2 : arg2.IsWhole)
    (arg3 : Memref sig .tc .vmem S8x128 .f32) (harg3 : arg3.IsWhole) (hc1 : k0_cond1 i = 1#1) (hc2 : ¬ k0_cond2 i = 1#1)
    (x0 : Vec F S8x16x224x128 .f32) :
    { L1 : List (View.Piece (Elt F) S8x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__pool_kernel i arg2 harg2 arg3 harg3) K } := by
  refine ⟨?_, fun E K => ?run⟩
  case run =>
    simp only [cc0__pool_kernel_eq_skeleton]; unfold cc0__pool_kernel_skel
    unfold owns
    iintro ⟨⟨%f0, %hf0, H0⟩, ⟨%d1, %f1, -, H1⟩, Hk⟩
    obtain rfl := harg2.eq_unread hf0
    sl_exec (disch := first | exact hc1 | exact hc2)
    sl_step
    iapply Hk
    isplitl [H0]
    · iexists _; isplitr; · ipureintro; exact harg2.read_unread _
      iexact H0
    iexists _; iexact H1

end Cert.Kernel.Pool

end
-- ==== Proof.KPoolRunFold.lean ====
/-
  The body at a point of a later height step (the fold case): on whole staging memrefs, the input's at its block
  and the output's at the running maximum `xo`, the body runs to its end, leaves the input's buffer as it was and
  the output's buffer with the pieces its one store wrote.
-/
import proofs.«171184_j54056458387499_2_alg».proof.Proof.KPoolRunReset

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output's buffer ends with in the fold case, with the run that finds them. -/
noncomputable def runFold (c : Dev nD) (i : grid0.Coords) (arg2 : Memref sig .tc .vmem S8x16x224x128 .f32) (harg2 : arg2.IsWhole)
    (arg3 : Memref sig .tc .vmem S8x128 .f32) (harg3 : arg3.IsWhole) (hc1 : ¬ k0_cond1 i = 1#1) (hc2 : k0_cond2 i = 1#1)
    (x0 : Vec F S8x16x224x128 .f32) (xo : Vec F S8x128 .f32) :
    { L1 : List (View.Piece (Elt F) S8x128 .f32) //
      ∀ (E : Set ℕ) (K : PUnit → sProp 𝕄),
        iprop(owns (c : Thread nD τ) arg2 fullShare x0 ∗ owns (c : Thread nD τ) arg3 fullShare xo
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__pool_kernel i arg2 harg2 arg3 harg3) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    iexists _; iexact H1

end Cert.Kernel.Pool

end
-- ==== Proof.KPoolFrame.lean ====
/-
  The frame of the pooling kernel: what the output's staging buffer holds after each grid point (the overwrite
  case's store at height step 0, the fold case's store over what the point before left at every later step),
  the pipeline's proof data over it, the body's obligation at a generic point, the run and the frame.
-/
import proofs.«171184_j54056458387499_2_alg».proof.Proof.KPoolRunFold

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The overwrite case's one store covers the output block. -/
theorem coverReset (c : Dev nD) (i : grid0.Coords) (arg2 : Memref sig .tc .vmem S8x16x224x128 .f32) (harg2 : arg2.IsWhole) (arg3 : Memref sig .tc .vmem S8x128 .f32) (harg3 : arg3.IsWhole) (hc1 : k0_cond1 i = 1#1) (hc2 : ¬ k0_cond2 i = 1#1)
    (x0 : Vec F S8x16x224x128 .f32) (y : S8x128.Idx) :
    ∃ pc ∈ (runReset c i arg2 harg2 arg3 harg3 hc1 hc2 x0).1, y ∈ pc.1.set :=
  View.cover_of_tiledL (runReset c i arg2 harg2 arg3 harg3 hc1 hc2 x0).1 S8x128.size (by sl_kernel_rfl) y

/-- What the overwrite case leaves in the output's staging buffer. -/
def outReset (c : Dev nD) (i : grid0.Coords) (arg2 : Memref sig .tc .vmem S8x16x224x128 .f32) (harg2 : arg2.IsWhole) (arg3 : Memref sig .tc .vmem S8x128 .f32) (harg3 : arg3.IsWhole) (hc1 : k0_cond1 i = 1#1) (hc2 : ¬ k0_cond2 i = 1#1)
    (x0 : Vec F S8x16x224x128 .f32) : Vec F S8x128 .f32 :=
  VO.read (Elt F) (VO.writes (Elt F) VO.junk (runReset c i arg2 harg2 arg3 harg3 hc1 hc2 x0).1)

/-- The fold case's one store covers the output block. -/
theorem coverFold (c : Dev nD) (i : grid0.Coords) (arg2 : Memref sig .tc .vmem S8x16x224x128 .f32) (harg2 : arg2.IsWhole) (arg3 : Memref sig .tc .vmem S8x128 .f32) (harg3 : arg3.IsWhole) (hc1 : ¬ k0_cond1 i = 1#1) (hc2 : k0_cond2 i = 1#1)
    (x0 : Vec F S8x16x224x128 .f32) (xo : Vec F S8x128 .f32) (y : S8x128.Idx) :
    ∃ pc ∈ (runFold c i arg2 harg2 arg3 harg3 hc1 hc2 x0 xo).1, y ∈ pc.1.set :=
  View.cover_of_tiledL (runFold c i arg2 harg2 arg3 harg3 hc1 hc2 x0 xo).1 S8x128.size (by sl_kernel_rfl) y

/-- What the fold case leaves in the output's staging buffer, over the running contents `xo`. -/
def outFold (c : Dev nD) (i : grid0.Coords) (arg2 : Memref sig .tc .vmem S8x16x224x128 .f32) (harg2 : arg2.IsWhole) (arg3 : Memref sig .tc .vmem S8x128 .f32) (harg3 : arg3.IsWhole) (hc1 : ¬ k0_cond1 i = 1#1) (hc2 : k0_cond2 i = 1#1)
    (x0 : Vec F S8x16x224x128 .f32) (xo : Vec F S8x128 .f32) : Vec F S8x128 .f32 :=
  VO.read (Elt F) (VO.writes (Elt F) VO.junk (runFold c i arg2 harg2 arg3 harg3 hc1 hc2 x0 xo).1)

/-! ## What the output's staging buffer holds after each point -/

/-- After point `n`: at height step 0 what the overwrite case leaves of the point's block; at a later height
    step what the fold case leaves of the point's block over what the point before left. -/
def outsAt (c : Dev nD) : (n : ℕ) → n < cfg0.N → Vec F S8x128 .f32
  | 0, hn => outReset c (grid0.coords ⟨0, hn⟩) (ms0 ⟨0, hn⟩) (hs0 ⟨0, hn⟩) (ms1 ⟨0, hn⟩) (hs1 ⟨0, hn⟩) ((hcond1 ⟨0, hn⟩).mpr (Nat.zero_mod _))
      (fun h => (hcond2 ⟨0, hn⟩).mp h (Nat.zero_mod _)) (iblk m c 0 ⟨0, hn⟩)
  | n + 1, hn =>
    if h0 : (n + 1) % 14 = 0 then
      outReset c (grid0.coords ⟨n + 1, hn⟩) (ms0 ⟨n + 1, hn⟩) (hs0 ⟨n + 1, hn⟩) (ms1 ⟨n + 1, hn⟩) (hs1 ⟨n + 1, hn⟩) ((hcond1 ⟨n + 1, hn⟩).mpr h0)
        (fun h => (hcond2 ⟨n + 1, hn⟩).mp h h0) (iblk m c 0 ⟨n + 1, hn⟩)
    else
      outFold c (grid0.coords ⟨n + 1, hn⟩) (ms0 ⟨n + 1, hn⟩) (hs0 ⟨n + 1, hn⟩) (ms1 ⟨n + 1, hn⟩) (hs1 ⟨n + 1, hn⟩) (fun h => h0 ((hcond1 ⟨n + 1, hn⟩).mp h))
        ((hcond2 ⟨n + 1, hn⟩).mpr h0) (iblk m c 0 ⟨n + 1, hn⟩) (outsAt c n (Nat.lt_of_succ_lt hn))

/-- `outsAt` at a point of height step 0. -/
theorem outsAt_reset (c : Dev nD) (t : Fin cfg0.N) (h0 : t.val % 14 = 0) :
    outsAt m c t.val t.isLt = outReset c (grid0.coords t) (ms0 t) (hs0 t) (ms1 t) (hs1 t) ((hcond1 t).mpr h0) (fun h => (hcond2 t).mp h h0) (iblk m c 0 t) := by
  obtain ⟨n, hn⟩ := t
  cases n with
  | zero => exact rfl
  | succ n => exact (dif_pos h0).trans rfl

/-- `outsAt` at a point of a later height step: over what the point before left. -/
theorem outsAt_fold (c : Dev nD) (t : Fin cfg0.N) (h0 : ¬ t.val % 14 = 0) :
    outsAt m c t.val t.isLt = outFold c (grid0.coords t) (ms0 t) (hs0 t) (ms1 t) (hs1 t) (fun h => h0 ((hcond1 t).mp h)) ((hcond2 t).mpr h0) (iblk m c 0 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the
    output's at `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = (outsAt m c t.val t.isLt) := by dsimp only [dats]

/-- The input's current staging buffer holds its block at every point. -/
theorem before0 (c : Dev nD) (t : Fin cfg0.N) (d) : (dats m 0 c).before 0 t d = iblk m c 0 t :=
  before0_0_of m (dats m 0 c) (A_eq m c 0) (after0 m c) t d

/-- At a point of a later height step the output's current staging buffer holds what the body left at the point
    before: the point is not the first, the buffer was not written back between, the window is live and uncut. -/
theorem before1_fold (c : Dev nD) (t : Fin cfg0.N) (h0 : ¬ t.val % 14 = 0) (d) :
    (dats m 0 c).before 1 t d = (outsAt m c (t.val - 1) (Nat.lt_of_le_of_lt (Nat.sub_le _ _) t.isLt)) := by
  have hN : t.val < 56 := lt_of_lt_of_eq t.isLt (show cfg0.N = 56 from N_0)
  rw [Dat.before_out_kept _ 1 rfl t (by omega) (Bool.eq_false_iff.mpr fun h => by have := (flush0_1 _).mp h; dsimp only at this; omega)
    live1 (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

set_option maxHeartbeats 1600000 in
/-- The body at any point: the input's memref holds its block; the height step says which case the point is in; in
    the fold case the output's memref holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = (dats m 0 c).Φ t.castSucc from rfl,
    show (dats m 0 c).owesAt () t.succ = (dats m 0 c).owesAt () t.castSucc from rfl,
    after0, after1]
  by_cases h0 : t.val % 14 = 0
  · rw [outsAt_reset m c t h0]
    unfold outReset
    iintro ⟨HΦ, Ho, ⟨%d0, H0⟩, ⟨%d1, H1⟩⟩
    iapply ((runReset c (grid0.coords t) _ _ _ _ ((hcond1 t).mpr h0) (fun h => (hcond2 t).mp h h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverReset c _ _ _ _ _ _ _ _)
  · rw [outsAt_fold m c t h0]
    simp only [before1_fold m c t h0]
    unfold outFold
    iintro ⟨HΦ, Ho, ⟨%d0, H0⟩, ⟨%d1, H1⟩⟩
    iapply ((runFold c (grid0.coords t) _ _ _ _ (fun h => h0 ((hcond1 t).mp h)) ((hcond2 t).mpr h0) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFold c _ _ _ _ _ _ _ _ _)

/-- The library's body obligation, at every point: the output window is live everywhere. -/
theorem body_obligation (c : Dev nD) : BodyObligation (dats (F := F) m 0 c) (defs₀ (F := F)) Variants.none () Set.univ := fun t => by
  rw [bigSep_W0, bigSep_W0, live1 (cfg0.grid.coords t)]
  exact sound_body m c t

/-! ## The run and the frame -/

set_option backward.isDefEq.respectTransparency.types false in
/-- Every weakly fair execution of @main terminates, and every final state has each array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its argument array as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Pool

end
-- ==== Proof.PoolConds.lean ====
/-
  Max-pooling over the two spatial axes, one batch tile of 8 rows per grid row and 16 image rows per grid point:
  the grid is 4 × 14, walked row by row, so point `t` is batch tile `t / 14` and height step `t % 14`.
  The body computes the maximum over its block's 16 × 224 positions and then either overwrites the output
  block (height step 0) or folds it into what the block already holds (every later height step).
  Here: the two branch conditions as functions of the point, and that the output window is never idle.
-/
import proofs.«171184_j54056458387499_2_alg».proof.Proof.Gen.KernelIdeal.Frame
import proofs.«171184_j54056458387499_2_alg».proof.Proof.Gen.KernelIdeal.Skeleton

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (overwrite) is taken exactly at height step 0. -/
theorem hcond1 : ∀ t : Fin cfg0.N, k0_cond1 (grid0.coords t) = 1#1 ↔ t.val % 14 = 0 :=
  (by decide +kernel : ∀ t : Fin grid0.N, k0_cond1 (grid0.coords t) = 1#1 ↔ t.val % 14 = 0)

/-- The second branch (fold into the block) is taken exactly at the other height steps. -/
theorem hcond2 : ∀ t : Fin cfg0.N, k0_cond2 (grid0.coords t) = 1#1 ↔ ¬ t.val % 14 = 0 :=
  (by decide +kernel : ∀ t : Fin grid0.N, k0_cond2 (grid0.coords t) = 1#1 ↔ ¬ t.val % 14 = 0)

/-- One of the two branches stores at every coordinate, so the output window is idle nowhere. -/
theorem live1 : ∀ i : grid0.Coords, cfg0.idle 1 i = false :=
  (by decide +kernel : ∀ i : grid0.Coords, idle0 1 i = false)

/-- Each window's current staging memref at point `t`, as the pipeline passes it, and its wholeness. -/
abbrev ms0 (t : Fin cfg0.N) : Memref sig .tc .vmem S8x16x224x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128 .f32 := win0_1.stage (cfg0.slots t 1)
abbrev hs1 (t : Fin cfg0.N) : (ms1 t).IsWhole := hstage0_1 ((cfg0.slots t 1).cast nbuf0_1)

/-- One staging buffer of the output window, through which a buffer's contents after stores are stated. -/
abbrev VO : View sig .tc .vmem S8x128 .f32 := (Memref.whole cc0_stg1_0 : Memref sig .tc .vmem S8x128 .f32).view

end Cert.KernelIdeal.Pool

end
-- ==== Proof.PoolRunReset.lean ====
/-
  The body at a point of height step 0 (the overwrite case): on whole staging memrefs, the input's at its block
  and the output's at anything, the body runs to its end, leaves the input's buffer as it was and the output's
  buffer with the pieces its one store wrote.
-/
import proofs.«171184_j54056458387499_2_alg».proof.Proof.PoolConds

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output's buffer ends with in the overwrite case, with the run that finds them. -/
noncomputable def runReset (c : Dev nD) (i : grid0.Coords) (arg2 : Memref sig .tc .vmem S8x16x224x128 .f32) (harg2 : arg2.IsWhole)
    (arg3 : Memref sig .tc .vmem S8x128 .f32) (harg3 : arg3.IsWhole) (hc1 : k0_cond1 i = 1#1) (hc2 : ¬ k0_cond2 i = 1#1)
    (x0 : Vec F S8x16x224x128 .f32) :
    { L1 : List (View.Piece (Elt F) S8x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__pool_kernel i arg2 harg2 arg3 harg3) K } := by
  refine ⟨?_, fun E K => ?run⟩
  case run =>
    simp only [cc0__pool_kernel_eq_skeleton]; unfold cc0__pool_kernel_skel
    unfold owns
    iintro ⟨⟨%f0, %hf0, H0⟩, ⟨%d1, %f1, -, H1⟩, Hk⟩
    obtain rfl := harg2.eq_unread hf0
    sl_exec (disch := first | exact hc1 | exact hc2)
    sl_step
    iapply Hk
    isplitl [H0]
    · iexists _; isplitr; · ipureintro; exact harg2.read_unread _
      iexact H0
    iexists _; iexact H1

end Cert.KernelIdeal.Pool

end
-- ==== Proof.PoolRunFold.lean ====
/-
  The body at a point of a later height step (the fold case): on whole staging memrefs, the input's at its block
  and the output's at the running maximum `xo`, the body runs to its end, leaves the input's buffer as it was and
  the output's buffer with the pieces its one store wrote.
-/
import proofs.«171184_j54056458387499_2_alg».proof.Proof.PoolRunReset

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output's buffer ends with in the fold case, with the run that finds them. -/
noncomputable def runFold (c : Dev nD) (i : grid0.Coords) (arg2 : Memref sig .tc .vmem S8x16x224x128 .f32) (harg2 : arg2.IsWhole)
    (arg3 : Memref sig .tc .vmem S8x128 .f32) (harg3 : arg3.IsWhole) (hc1 : ¬ k0_cond1 i = 1#1) (hc2 : k0_cond2 i = 1#1)
    (x0 : Vec F S8x16x224x128 .f32) (xo : Vec F S8x128 .f32) :
    { L1 : List (View.Piece (Elt F) S8x128 .f32) //
      ∀ (E : Set ℕ) (K : PUnit → sProp 𝕄),
        iprop(owns (c : Thread nD τ) arg2 fullShare x0 ∗ owns (c : Thread nD τ) arg3 fullShare xo
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__pool_kernel i arg2 harg2 arg3 harg3) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    iexists _; iexact H1

end Cert.KernelIdeal.Pool

end
-- ==== Proof.PoolFrame.lean ====
/-
  The frame of the pooling kernel: what the output's staging buffer holds after each grid point (the overwrite
  case's store at height step 0, the fold case's store over what the point before left at every later step),
  the pipeline's proof data over it, the body's obligation at a generic point, the run and the frame.
-/
import proofs.«171184_j54056458387499_2_alg».proof.Proof.PoolRunFold

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The overwrite case's one store covers the output block. -/
theorem coverReset (c : Dev nD) (i : grid0.Coords) (arg2 : Memref sig .tc .vmem S8x16x224x128 .f32) (harg2 : arg2.IsWhole) (arg3 : Memref sig .tc .vmem S8x128 .f32) (harg3 : arg3.IsWhole) (hc1 : k0_cond1 i = 1#1) (hc2 : ¬ k0_cond2 i = 1#1)
    (x0 : Vec F S8x16x224x128 .f32) (y : S8x128.Idx) :
    ∃ pc ∈ (runReset c i arg2 harg2 arg3 harg3 hc1 hc2 x0).1, y ∈ pc.1.set :=
  View.cover_of_tiledL (runReset c i arg2 harg2 arg3 harg3 hc1 hc2 x0).1 S8x128.size (by sl_kernel_rfl) y

/-- What the overwrite case leaves in the output's staging buffer. -/
def outReset (c : Dev nD) (i : grid0.Coords) (arg2 : Memref sig .tc .vmem S8x16x224x128 .f32) (harg2 : arg2.IsWhole) (arg3 : Memref sig .tc .vmem S8x128 .f32) (harg3 : arg3.IsWhole) (hc1 : k0_cond1 i = 1#1) (hc2 : ¬ k0_cond2 i = 1#1)
    (x0 : Vec F S8x16x224x128 .f32) : Vec F S8x128 .f32 :=
  VO.read (Elt F) (VO.writes (Elt F) VO.junk (runReset c i arg2 harg2 arg3 harg3 hc1 hc2 x0).1)

/-- The fold case's one store covers the output block. -/
theorem coverFold (c : Dev nD) (i : grid0.Coords) (arg2 : Memref sig .tc .vmem S8x16x224x128 .f32) (harg2 : arg2.IsWhole) (arg3 : Memref sig .tc .vmem S8x128 .f32) (harg3 : arg3.IsWhole) (hc1 : ¬ k0_cond1 i = 1#1) (hc2 : k0_cond2 i = 1#1)
    (x0 : Vec F S8x16x224x128 .f32) (xo : Vec F S8x128 .f32) (y : S8x128.Idx) :
    ∃ pc ∈ (runFold c i arg2 harg2 arg3 harg3 hc1 hc2 x0 xo).1, y ∈ pc.1.set :=
  View.cover_of_tiledL (runFold c i arg2 harg2 arg3 harg3 hc1 hc2 x0 xo).1 S8x128.size (by sl_kernel_rfl) y

/-- What the fold case leaves in the output's staging buffer, over the running contents `xo`. -/
def outFold (c : Dev nD) (i : grid0.Coords) (arg2 : Memref sig .tc .vmem S8x16x224x128 .f32) (harg2 : arg2.IsWhole) (arg3 : Memref sig .tc .vmem S8x128 .f32) (harg3 : arg3.IsWhole) (hc1 : ¬ k0_cond1 i = 1#1) (hc2 : k0_cond2 i = 1#1)
    (x0 : Vec F S8x16x224x128 .f32) (xo : Vec F S8x128 .f32) : Vec F S8x128 .f32 :=
  VO.read (Elt F) (VO.writes (Elt F) VO.junk (runFold c i arg2 harg2 arg3 harg3 hc1 hc2 x0 xo).1)

/-! ## What the output's staging buffer holds after each point -/

/-- After point `n`: at height step 0 what the overwrite case leaves of the point's block; at a later height
    step what the fold case leaves of the point's block over what the point before left. -/
def outsAt (c : Dev nD) : (n : ℕ) → n < cfg0.N → Vec F S8x128 .f32
  | 0, hn => outReset c (grid0.coords ⟨0, hn⟩) (ms0 ⟨0, hn⟩) (hs0 ⟨0, hn⟩) (ms1 ⟨0, hn⟩) (hs1 ⟨0, hn⟩) ((hcond1 ⟨0, hn⟩).mpr (Nat.zero_mod _))
      (fun h => (hcond2 ⟨0, hn⟩).mp h (Nat.zero_mod _)) (iblk m c 0 ⟨0, hn⟩)
  | n + 1, hn =>
    if h0 : (n + 1) % 14 = 0 then
      outReset c (grid0.coords ⟨n + 1, hn⟩) (ms0 ⟨n + 1, hn⟩) (hs0 ⟨n + 1, hn⟩) (ms1 ⟨n + 1, hn⟩) (hs1 ⟨n + 1, hn⟩) ((hcond1 ⟨n + 1, hn⟩).mpr h0)
        (fun h => (hcond2 ⟨n + 1, hn⟩).mp h h0) (iblk m c 0 ⟨n + 1, hn⟩)
    else
      outFold c (grid0.coords ⟨n + 1, hn⟩) (ms0 ⟨n + 1, hn⟩) (hs0 ⟨n + 1, hn⟩) (ms1 ⟨n + 1, hn⟩) (hs1 ⟨n + 1, hn⟩) (fun h => h0 ((hcond1 ⟨n + 1, hn⟩).mp h))
        ((hcond2 ⟨n + 1, hn⟩).mpr h0) (iblk m c 0 ⟨n + 1, hn⟩) (outsAt c n (Nat.lt_of_succ_lt hn))

/-- `outsAt` at a point of height step 0. -/
theorem outsAt_reset (c : Dev nD) (t : Fin cfg0.N) (h0 : t.val % 14 = 0) :
    outsAt m c t.val t.isLt = outReset c (grid0.coords t) (ms0 t) (hs0 t) (ms1 t) (hs1 t) ((hcond1 t).mpr h0) (fun h => (hcond2 t).mp h h0) (iblk m c 0 t) := by
  obtain ⟨n, hn⟩ := t
  cases n with
  | zero => exact rfl
  | succ n => exact (dif_pos h0).trans rfl

/-- `outsAt` at a point of a later height step: over what the point before left. -/
theorem outsAt_fold (c : Dev nD) (t : Fin cfg0.N) (h0 : ¬ t.val % 14 = 0) :
    outsAt m c t.val t.isLt = outFold c (grid0.coords t) (ms0 t) (hs0 t) (ms1 t) (hs1 t) (fun h => h0 ((hcond1 t).mp h)) ((hcond2 t).mpr h0) (iblk m c 0 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the
    output's at `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = (outsAt m c t.val t.isLt) := by dsimp only [dats]

/-- The input's current staging buffer holds its block at every point. -/
theorem before0 (c : Dev nD) (t : Fin cfg0.N) (d) : (dats m 0 c).before 0 t d = iblk m c 0 t :=
  before0_0_of m (dats m 0 c) (A_eq m c 0) (after0 m c) t d

/-- At a point of a later height step the output's current staging buffer holds what the body left at the point
    before: the point is not the first, the buffer was not written back between, the window is live and uncut. -/
theorem before1_fold (c : Dev nD) (t : Fin cfg0.N) (h0 : ¬ t.val % 14 = 0) (d) :
    (dats m 0 c).before 1 t d = (outsAt m c (t.val - 1) (Nat.lt_of_le_of_lt (Nat.sub_le _ _) t.isLt)) := by
  have hN : t.val < 56 := lt_of_lt_of_eq t.isLt (show cfg0.N = 56 from N_0)
  rw [Dat.before_out_kept _ 1 rfl t (by omega) (Bool.eq_false_iff.mpr fun h => by have := (flush0_1 _).mp h; dsimp only at this; omega)
    live1 (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

set_option maxHeartbeats 1600000 in
/-- The body at any point: the input's memref holds its block; the height step says which case the point is in; in
    the fold case the output's memref holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = (dats m 0 c).Φ t.castSucc from rfl,
    show (dats m 0 c).owesAt () t.succ = (dats m 0 c).owesAt () t.castSucc from rfl,
    after0, after1]
  by_cases h0 : t.val % 14 = 0
  · rw [outsAt_reset m c t h0]
    unfold outReset
    iintro ⟨HΦ, Ho, ⟨%d0, H0⟩, ⟨%d1, H1⟩⟩
    iapply ((runReset c (grid0.coords t) _ _ _ _ ((hcond1 t).mpr h0) (fun h => (hcond2 t).mp h h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverReset c _ _ _ _ _ _ _ _)
  · rw [outsAt_fold m c t h0]
    simp only [before1_fold m c t h0]
    unfold outFold
    iintro ⟨HΦ, Ho, ⟨%d0, H0⟩, ⟨%d1, H1⟩⟩
    iapply ((runFold c (grid0.coords t) _ _ _ _ (fun h => h0 ((hcond1 t).mp h)) ((hcond2 t).mpr h0) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFold c _ _ _ _ _ _ _ _ _)

/-- The library's body obligation, at every point: the output window is live everywhere. -/
theorem body_obligation (c : Dev nD) : BodyObligation (dats (F := F) m 0 c) (defs₀ (F := F)) Variants.none () Set.univ := fun t => by
  rw [bigSep_W0, bigSep_W0, live1 (cfg0.grid.coords t)]
  exact sound_body m c t

/-! ## The run and the frame -/

set_option backward.isDefEq.respectTransparency.types false in
/-- Every weakly fair execution of @main terminates, and every final state has each array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its argument array as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Pool

end
-- ==== Proof.PoolBlock.lean ====
/-
  The maximum the body computes of its block, as one term: image row `h` of the block (an 8 × 1 × 224 × 128 slab)
  is reduced over its 224 columns, and the sixteen row maxima are folded, first to last, into a running maximum
  that starts at −∞.
-/
import proofs.«171184_j54056458387499_2_alg».proof.Proof.Gen.KernelIdeal.Skeleton
import Idealize.ShloMosaic.Lib.Pipeline.FrameBody
import Idealize.ShloMosaic.Lib.Pipeline.Value

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Image row `off 1` of the block: what the body's load at offsets `off` reads of block contents `x0`. -/
abbrev slab (x0 : Vec F S8x16x224x128 .f32) (off : Fin 4 → Nat)
    (inb : ∀ a, off a + S8x1x224x128.size a ≤ S8x16x224x128.size a) : Vec F S8x1x224x128 .f32 :=
  View.ld x0 (Rect.unit (s := S8x16x224x128) off S8x1x224x128.size inb)

/-- The body's running maximum after all sixteen image rows of block contents `x0`. -/
def blockMax (x0 : Vec F S8x16x224x128 .f32) : FVec F S8x128 .f32 :=
  k0_pay1
    (k0_pay4 (k0_pay3 (slab x0 ![0, 0, 0, 0] inb_S8x16x224x128_S8x1x224x128_0_0_0_0) (slab x0 ![0, 1, 0, 0] inb_S8x16x224x128_S8x1x224x128_0_1_0_0) (slab x0 ![0, 2, 0, 0] inb_S8x16x224x128_S8x1x224x128_0_2_0_0) (slab x0 ![0, 3, 0, 0] inb_S8x16x224x128_S8x1x224x128_0_3_0_0) (slab x0 ![0, 4, 0, 0] inb_S8x16x224x128_S8x1x224x128_0_4_0_0))
      (slab x0 ![0, 5, 0, 0] inb_S8x16x224x128_S8x1x224x128_0_5_0_0) (slab x0 ![0, 6, 0, 0] inb_S8x16x224x128_S8x1x224x128_0_6_0_0) (slab x0 ![0, 7, 0, 0] inb_S8x16x224x128_S8x1x224x128_0_7_0_0) (slab x0 ![0, 8, 0, 0] inb_S8x16x224x128_S8x1x224x128_0_8_0_0) (slab x0 ![0, 9, 0, 0] inb_S8x16x224x128_S8x1x224x128_0_9_0_0) (slab x0 ![0, 10, 0, 0] inb_S8x16x224x128_S8x1x224x128_0_10_0_0))
    (slab x0 ![0, 11, 0, 0] inb_S8x16x224x128_S8x1x224x128_0_11_0_0) (slab x0 ![0, 12, 0, 0] inb_S8x16x224x128_S8x1x224x128_0_12_0_0) (slab x0 ![0, 13, 0, 0] inb_S8x16x224x128_S8x1x224x128_0_13_0_0) (slab x0 ![0, 14, 0, 0] inb_S8x16x224x128_S8x1x224x128_0_14_0_0) (slab x0 ![0, 15, 0, 0] inb_S8x16x224x128_S8x1x224x128_0_15_0_0)

end Cert.KernelIdeal.Pool

end
-- ==== Proof.PoolValue.lean ====
/-
  What the two cases leave in the output's staging buffer, as values: the overwrite case leaves the block's maximum,
  the fold case the entrywise maximum of what the buffer held and the block's maximum.
-/
import proofs.«171184_j54056458387499_2_alg».proof.Proof.PoolFrame
import proofs.«171184_j54056458387499_2_alg».proof.Proof.PoolBlock

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The overwrite case's one covering store writes the block's maximum. -/
theorem outReset_eq (c : Dev nD) (i : grid0.Coords) (arg2 : Memref sig .tc .vmem S8x16x224x128 .f32) (harg2 : arg2.IsWhole) (arg3 : Memref sig .tc .vmem S8x128 .f32) (harg3 : arg3.IsWhole) (hc1 : k0_cond1 i = 1#1) (hc2 : ¬ k0_cond2 i = 1#1)
    (x0 : Vec F S8x16x224x128 .f32) :
    outReset c i arg2 harg2 arg3 harg3 hc1 hc2 x0 = blockMax x0 := by
  unfold outReset
  rw [View.read_writes_eq_canon _ _ _ (coverReset c i arg2 harg2 arg3 harg3 hc1 hc2 x0)]
  unfold runReset
  dsimp only
  sl_unfold_words
  rw [View.canon_unit_zero hz2]
  simp only [View.readAt_eq_ld, harg2.read_unread]
  rfl

/-- The fold case's one covering store writes the maximum of the buffer's contents and the block's maximum. -/
theorem outFold_eq (c : Dev nD) (i : grid0.Coords) (arg2 : Memref sig .tc .vmem S8x16x224x128 .f32) (harg2 : arg2.IsWhole) (arg3 : Memref sig .tc .vmem S8x128 .f32) (harg3 : arg3.IsWhole) (hc1 : ¬ k0_cond1 i = 1#1) (hc2 : k0_cond2 i = 1#1)
    (x0 : Vec F S8x16x224x128 .f32) (xo : Vec F S8x128 .f32) :
    outFold c i arg2 harg2 arg3 harg3 hc1 hc2 x0 xo = maximumf xo (blockMax x0) := by
  unfold outFold
  rw [View.read_writes_eq_canon _ _ _ (coverFold c i arg2 harg2 arg3 harg3 hc1 hc2 x0 xo)]
  unfold runFold
  dsimp only
  sl_unfold_words
  rw [View.canon_unit_zero hz2]
  unfold k0_pay2
  simp only [View.readAt_eq_ld, harg2.read_unread, harg3.read_unread, View.ld_unit_zero (S := S8x128) hz2, shapeCast_self]
  rfl

end Cert.KernelIdeal.Pool

end
-- ==== Proof.PoolBlockMax.lean ====
/-
  The body's running maximum as a least upper bound. One image row of the block (an 8 × 1 × 224 × 128 slab) is
  reduced over its 224 columns by a fold of max from −∞, and a fold of max from −∞ is at most z exactly when every
  element folded is; the sixteen row maxima are folded the same way. So the running maximum at (p, c) is at most z
  exactly when every entry of the block with batch row p and channel c is: each entry lies in exactly one image row.
-/
import proofs.«171184_j54056458387499_2_alg».proof.Proof.PoolBlock
import Idealize.ShloMosaic.Lib.ValueIdx
import Idealize.ShloMosaic.PureOps.Ideal.Laws
noncomputable section
open Idealize.ShloMosaic Idealize.ShloMosaic.ValueIdx
namespace Cert.KernelIdeal.PoolMath
open Cert.KernelIdeal Cert.KernelIdeal.Gen Cert.KernelIdeal.Pool

/-- The pattern the reductions start from denotes −∞. -/
theorem ofBits_negInf : Ideal.ofBits .f32 0xFF800000#32 = (⊥ : EReal) := by simp [Ideal.ofBits, Ideal.ieee]

/-- The maximum over its 224 columns of one image row (an 8 × 1 × 224 × 128 slab), as an 8 × 128 vector. -/
def rowMax (v : Vec Ideal S8x1x224x128 .f32) : FVec Ideal S8x128 .f32 :=
  shapeCast S8x128 (multiReduction (F := Ideal) .maximumf [2] S8x1x128 v 0xFF800000#32 reduces_S8x1x224x128_S8x1x128 (.inl rfl) rfl)
    shapeCasts_S8x1x128_S8x128

/-- A slab index loses its column to (p, 0, c) exactly when its batch row is p and its channel is c. -/
theorem drop_eq_iff (x : S8x1x224x128.Idx) (p : Fin 8) (c : Fin 128) :
    reduces_S8x1x224x128_S8x1x128.drop x = ix3 p (0 : Fin 1) c ↔ x 0 = p ∧ x 3 = c := by
  have h0 := reduces_S8x1x224x128_S8x1x128.drop_apply_val_of_eq x 0 0
  have h1 := reduces_S8x1x224x128_S8x1x128.drop_apply_val_of_eq x 1 1
  have h2 := reduces_S8x1x224x128_S8x1x128.drop_apply_val_of_eq x 2 3
  constructor
  · intro h
    refine ⟨Fin.ext ?_, Fin.ext ?_⟩
    · rw [← h0, h]
    · rw [← h2, h]
  · rintro ⟨rfl, rfl⟩
    funext b
    apply Fin.ext
    match b with
    | ⟨0, _⟩ => exact h0
    | ⟨1, _⟩ =>
      have := (x 1).isLt
      have : (x 1).val = 0 := by simp at this; omega
      exact h1.trans this
    | ⟨2, _⟩ => exact h2

/-- A slab's row maximum at (p, c) is the least upper bound of the slab's entries of batch row p and channel c. -/
theorem rowMax_le_iff (v : Vec Ideal S8x1x224x128 .f32) (p : Fin 8) (c : Fin 128) (z : EReal) :
    (rowMax v (ix2 p c) : EReal) ≤ z ↔ ∀ i : S8x1x224x128.Idx, i 0 = p → i 3 = c → (v i : EReal) ≤ z := by
  unfold rowMax
  rw [shapeCast_apply _ shapeCasts_S8x1x128_S8x128 (ix2 p c) (ix3 p (0 : Fin 1) c)
    (by rw [Shape.rowMajor_val_three, Shape.rowMajor_val_two]
        show (p.val * 1 + 0) * 128 + c.val = p.val * 128 + c.val
        omega)]
  have e := multiReduction_maximumf_eq_fold (F := Ideal) (φ := .f32) (axes := [2]) (t := S8x1x128) v 0xFF800000#32
    reduces_S8x1x224x128_S8x1x128 (.inl rfl) rfl (ix3 p (0 : Fin 1) c)
  refine (iff_of_eq (congrArg (· ≤ z) e)).trans ?_
  show Finset.fold max (Ideal.ofBits .f32 0xFF800000#32) v _ ≤ z ↔ _
  rw [Finset.fold_max_le, ofBits_negInf]
  simp only [bot_le, true_and, Finset.mem_filter, Finset.mem_univ, drop_eq_iff, and_imp]

/-- Image row h of the block: its row maximum at (p, c) is the least upper bound of the block's entries of batch
    row p, image row h and channel c. (Entry (p, 0, w, c) of the slab is entry (p, h, w, c) of the block.) -/
theorem slabMax_le_iff (x0 : Vec Ideal S8x16x224x128 .f32) (h : Nat)
    (inb : ∀ a, (![0, h, 0, 0] : Fin 4 → Nat) a + S8x1x224x128.size a ≤ S8x16x224x128.size a)
    (p : Fin 8) (c : Fin 128) (z : EReal) :
    (rowMax (slab x0 ![0, h, 0, 0] inb) (ix2 p c) : EReal) ≤ z ↔
      ∀ y : S8x16x224x128.Idx, y 0 = p → (y 1).val = h → y 3 = c → (x0 y : EReal) ≤ z := by
  rw [rowMax_le_iff]
  constructor
  · intro H y hp hh hc
    have e : (Rect.unit (s := S8x16x224x128) ![0, h, 0, 0] S8x1x224x128.size inb).idx
        (ix4 (y 0) (0 : Fin 1) (y 2) (y 3)) = y := by
      funext a
      apply Fin.ext
      match a with
      | ⟨0, _⟩ => show 0 + 1 * (y 0).val = (y 0).val; omega
      | ⟨1, _⟩ => show h + 1 * 0 = (y 1).val; omega
      | ⟨2, _⟩ => show 0 + 1 * (y 2).val = (y 2).val; omega
      | ⟨3, _⟩ => show 0 + 1 * (y 3).val = (y 3).val; omega
    have := H (ix4 (y 0) (0 : Fin 1) (y 2) (y 3)) hp hc
    rw [← e]
    exact this
  · intro H i hp hc
    show (x0 ((Rect.unit (s := S8x16x224x128) ![0, h, 0, 0] S8x1x224x128.size inb).idx i) : EReal) ≤ z
    apply H
    · apply Fin.ext
      show 0 + 1 * (i 0).val = p.val
      rw [hp]; omega
    · show h + 1 * (i 1).val = h
      have := (i 1).isLt
      simp at this
      omega
    · apply Fin.ext
      show 0 + 1 * (i 3).val = c.val
      rw [hc]; omega

/-- At the extended reals a word read as a float scalar is the extended real the pattern denotes. -/
theorem scalar_ofBits (b : BitVec 32) : Scalar.ofBits (F := Ideal) .f32 b = Ideal.ofBits .f32 b := rfl

/-- The scalar the running maximum starts from is −∞. -/
theorem scalar_negInf : Scalar.ofBits (F := Ideal) .f32 0xFF800000#32 = (⊥ : EReal) :=
  (scalar_ofBits _).trans ofBits_negInf

/-- The first five image rows: the running maximum from −∞. -/
theorem pay3_eq (v2 v7 v12 v17 v22 : Vec Ideal S8x1x224x128 .f32) :
    k0_pay3 (F := Ideal) v2 v7 v12 v17 v22 =
      maximumf (maximumf (maximumf (maximumf (maximumf
        (broadcast S8x128 (Scalar.ofBits (F := Ideal) .f32 0xFF800000#32)) (rowMax v2)) (rowMax v7)) (rowMax v12)) (rowMax v17))
        (rowMax v22) := rfl

/-- Six more image rows folded into a running maximum m. -/
theorem pay4_eq (m : FVec Ideal S8x128 .f32) (v27 v32 v37 v42 v47 v52 : Vec Ideal S8x1x224x128 .f32) :
    k0_pay4 (F := Ideal) m v27 v32 v37 v42 v47 v52 =
      maximumf (maximumf (maximumf (maximumf (maximumf (maximumf m (rowMax v27)) (rowMax v32)) (rowMax v37)) (rowMax v42))
        (rowMax v47)) (rowMax v52) := rfl

/-- The last five image rows folded into a running maximum m. -/
theorem pay1_eq (m : FVec Ideal S8x128 .f32) (v57 v62 v67 v72 v77 : Vec Ideal S8x1x224x128 .f32) :
    k0_pay1 (F := Ideal) m v57 v62 v67 v72 v77 =
      maximumf (maximumf (maximumf (maximumf (maximumf m (rowMax v57)) (rowMax v62)) (rowMax v67)) (rowMax v72)) (rowMax v77) :=
  rfl

/-- The running maximum after the first five image rows is at most z exactly when each of their row maxima is. -/
theorem pay3_le_iff (v2 v7 v12 v17 v22 : Vec Ideal S8x1x224x128 .f32) (j : S8x128.Idx) (z : EReal) :
    (k0_pay3 (F := Ideal) v2 v7 v12 v17 v22 j : EReal) ≤ z ↔
      (rowMax v2 j : EReal) ≤ z ∧ (rowMax v7 j : EReal) ≤ z ∧ (rowMax v12 j : EReal) ≤ z ∧ (rowMax v17 j : EReal) ≤ z ∧
        (rowMax v22 j : EReal) ≤ z := by
  rw [pay3_eq, maximumf_apply, maximumf_apply, maximumf_apply, maximumf_apply, maximumf_apply, broadcast_apply, scalar_negInf]
  simp only [max_le_iff, bot_le, true_and, and_assoc]

/-- After six more image rows: at most z exactly when the earlier running maximum and each of the six row maxima are. -/
theorem pay4_le_iff (m : FVec Ideal S8x128 .f32) (v27 v32 v37 v42 v47 v52 : Vec Ideal S8x1x224x128 .f32) (j : S8x128.Idx)
    (z : EReal) :
    (k0_pay4 (F := Ideal) m v27 v32 v37 v42 v47 v52 j : EReal) ≤ z ↔
      (m j : EReal) ≤ z ∧ (rowMax v27 j : EReal) ≤ z ∧ (rowMax v32 j : EReal) ≤ z ∧ (rowMax v37 j : EReal) ≤ z ∧
        (rowMax v42 j : EReal) ≤ z ∧ (rowMax v47 j : EReal) ≤ z ∧ (rowMax v52 j : EReal) ≤ z := by
  rw [pay4_eq]
  simp only [maximumf_apply, max_le_iff, and_assoc]

/-- After the last five image rows: at most z exactly when the earlier running maximum and each of the five row maxima are. -/
theorem pay1_le_iff (m : FVec Ideal S8x128 .f32) (v57 v62 v67 v72 v77 : Vec Ideal S8x1x224x128 .f32) (j : S8x128.Idx)
    (z : EReal) :
    (k0_pay1 (F := Ideal) m v57 v62 v67 v72 v77 j : EReal) ≤ z ↔
      (m j : EReal) ≤ z ∧ (rowMax v57 j : EReal) ≤ z ∧ (rowMax v62 j : EReal) ≤ z ∧ (rowMax v67 j : EReal) ≤ z ∧
        (rowMax v72 j : EReal) ≤ z ∧ (rowMax v77 j : EReal) ≤ z := by
  rw [pay1_eq]
  simp only [maximumf_apply, max_le_iff, and_assoc]

/-- At the extended reals the body's running maximum at (p, c) is the least upper bound of the block's entries of batch row p and channel c. -/
theorem blockMax_le_iff (x0 : Vec Ideal S8x16x224x128 .f32) (p : Fin 8) (c : Fin 128) (z : EReal) :
    (blockMax (F := Ideal) x0 (ix2 p c) : EReal) ≤ z ↔ ∀ y : S8x16x224x128.Idx, y 0 = p → y 3 = c → (x0 y : EReal) ≤ z := by
  unfold blockMax
  rw [pay1_le_iff, pay4_le_iff, pay3_le_iff]
  simp only [slabMax_le_iff, and_assoc]
  constructor
  · rintro ⟨r0, r1, r2, r3, r4, r5, r6, r7, r8, r9, r10, r11, r12, r13, r14, r15⟩ y hp hc
    have hlt : (y 1).val < 16 := (y 1).isLt
    obtain h | h | h | h | h | h | h | h | h | h | h | h | h | h | h | h :
        (y 1).val = 0 ∨ (y 1).val = 1 ∨ (y 1).val = 2 ∨ (y 1).val = 3 ∨ (y 1).val = 4 ∨ (y 1).val = 5 ∨ (y 1).val = 6 ∨
          (y 1).val = 7 ∨ (y 1).val = 8 ∨ (y 1).val = 9 ∨ (y 1).val = 10 ∨ (y 1).val = 11 ∨ (y 1).val = 12 ∨
          (y 1).val = 13 ∨ (y 1).val = 14 ∨ (y 1).val = 15 := by omega
    exacts [r0 y hp h hc, r1 y hp h hc, r2 y hp h hc, r3 y hp h hc, r4 y hp h hc, r5 y hp h hc, r6 y hp h hc,
      r7 y hp h hc, r8 y hp h hc, r9 y hp h hc, r10 y hp h hc, r11 y hp h hc, r12 y hp h hc, r13 y hp h hc,
      r14 y hp h hc, r15 y hp h hc]
  · intro H
    refine ⟨?_, ?_, ?_, ?_, ?_, ?_, ?_, ?_, ?_, ?_, ?_, ?_, ?_, ?_, ?_, ?_⟩ <;> exact fun y hp _ hc => H y hp hc

end Cert.KernelIdeal.PoolMath
end
-- ==== Proof.PoolArray.lean ====
/-
  The running maximum read against the input array, at the extended reals: a block is one batch tile and one band of
  sixteen image rows of the array, so by induction over the grid points the output's staging buffer holds, after the
  point of batch tile `q` and height step `s`, the least upper bound of the array's entries over image rows
  `0 … 16 s + 15`.
-/
import proofs.«171184_j54056458387499_2_alg».proof.Proof.PoolValue
import proofs.«171184_j54056458387499_2_alg».proof.Proof.PoolBlockMax
import Idealize.ShloMosaic.Lib.ValueIdx

set_option maxRecDepth 16384

noncomputable section

namespace Cert.KernelIdeal.Pool

open Cert.KernelIdeal Cert.KernelIdeal.Gen
open Idealize.ShloMosaic Idealize.ShloMosaic.TcCoe Idealize.SL.Sem
open Idealize.ShloMosaic.Pipeline (Dat)

open Idealize.ShloMosaic.ValueIdx Cert.KernelIdeal.PoolMath

variable (m : (ℓ : Loc nD τ sig) → Buf (Elt Ideal) ℓ)

/-- The input window's block index at point `t`: batch tile `t / 14`, height step `t % 14`, all columns and channels. -/
theorem index0 : ∀ t : Fin cfg0.N, win0_0.index t 0 = t.val / 14 ∧ win0_0.index t 1 = t.val % 14
    ∧ win0_0.index t 2 = 0 ∧ win0_0.index t 3 = 0 :=
  (by decide +kernel : ∀ t : Fin grid0.N, win0_0.index t 0 = t.val / 14 ∧ win0_0.index t 1 = t.val % 14
    ∧ win0_0.index t 2 = 0 ∧ win0_0.index t 3 = 0)

/-- The input array on core `c`, as extended reals. -/
abbrev arr (c : Dev nD) : S32x224x224x128.Idx → EReal := fun i => (V m c main_arg0 i : EReal)

/-- `z` bounds the array's entries of batch row `b`, channel `ch` and image rows in `[lo, hi)`. -/
def Below (c : Dev nD) (b : Nat) (ch : Fin 128) (lo hi : Nat) (z : EReal) : Prop :=
  ∀ i : S32x224x224x128.Idx, (i 0).val = b → i 3 = ch → lo ≤ (i 1).val → (i 1).val < hi → arr m c i ≤ z

/-- A band of image rows splits at any row inside it. -/
theorem below_split (c : Dev nD) (b : Nat) (ch : Fin 128) (lo mid hi : Nat) (z : EReal) (h1 : lo ≤ mid) (h2 : mid ≤ hi) :
    Below m c b ch lo hi z ↔ Below m c b ch lo mid z ∧ Below m c b ch mid hi z := by
  constructor
  · intro h
    exact ⟨fun i e0 e3 l u => h i e0 e3 l (by omega), fun i e0 e3 l u => h i e0 e3 (by omega) u⟩
  · rintro ⟨ha, hb⟩ i e0 e3 l u
    by_cases hm : (i 1).val < mid
    · exact ha i e0 e3 l hm
    · exact hb i e0 e3 (by omega) u

/-- Entry `y` of the block at point `t` is the array's entry at batch row `8 (t / 14) + y₀`, image row
    `16 (t % 14) + y₁`, column `y₂`, channel `y₃`. -/
theorem iblk_eq (c : Dev nD) (t : Fin cfg0.N) (y : S8x16x224x128.Idx) (i : S32x224x224x128.Idx)
    (h0 : (i 0).val = 8 * (t.val / 14) + (y 0).val) (h1 : (i 1).val = 16 * (t.val % 14) + (y 1).val)
    (h2 : (i 2).val = (y 2).val) (h3 : (i 3).val = (y 3).val) :
    (iblk m c 0 t y : EReal) = arr m c i := by
  obtain ⟨e0, e1, e2, e3⟩ := index0 t
  unfold iblk arr
  rw [View.read_apply]
  show V m c main_arg0 _ = V m c main_arg0 i
  congr 1
  funext a
  apply Fin.ext
  match a with
  | ⟨0, _⟩ => show win0_0.index t 0 * 8 + 1 * (y 0).val = (i 0).val; rw [e0]; omega
  | ⟨1, _⟩ => show win0_0.index t 1 * 16 + 1 * (y 1).val = (i 1).val; rw [e1]; omega
  | ⟨2, _⟩ => show win0_0.index t 2 * 224 + 1 * (y 2).val = (i 2).val; rw [e2]; omega
  | ⟨3, _⟩ => show win0_0.index t 3 * 128 + 1 * (y 3).val = (i 3).val; rw [e3]; omega

/-- `z` bounds the entries of batch row `p` and channel `ch` of block contents `x0`. -/
def BlockBelow (x0 : Vec Ideal S8x16x224x128 .f32) (p : Fin 8) (ch : Fin 128) (z : EReal) : Prop :=
  ∀ y : S8x16x224x128.Idx, y 0 = p → y 3 = ch → (x0 y : EReal) ≤ z

/-- A bound on the block's entries of batch row `p` and channel `ch` is a bound on the array's entries of batch row
    `8 (t / 14) + p`, channel `ch` and the 16 image rows of height step `t % 14`. -/
theorem block_below (c : Dev nD) (t : Fin cfg0.N) (p : Fin 8) (ch : Fin 128) (z : EReal) :
    BlockBelow (iblk m c 0 t) p ch z
      ↔ Below m c (8 * (t.val / 14) + p.val) ch (16 * (t.val % 14)) (16 * (t.val % 14) + 16) z := by
  have hN : t.val < 56 := lt_of_lt_of_eq t.isLt (show cfg0.N = 56 from N_0)
  unfold BlockBelow
  constructor
  · intro h i e0 e3 l u
    have i2 : (i 2).val < 224 := (i 2).isLt
    rw [← iblk_eq m c t (ix4 p ⟨(i 1).val - 16 * (t.val % 14), by omega⟩ ⟨(i 2).val, i2⟩ ch) i
      (by show _ = _ + p.val; omega) (by show _ = _ + ((i 1).val - 16 * (t.val % 14)); omega) rfl (by show _ = ch.val; rw [e3])]
    exact h _ rfl rfl
  · intro h y e0 e3
    have y0 : (y 0).val < 8 := (y 0).isLt
    have y1 : (y 1).val < 16 := (y 1).isLt
    have y2 : (y 2).val < 224 := (y 2).isLt
    have y3 : (y 3).val < 128 := (y 3).isLt
    have hm : t.val % 14 < 14 := Nat.mod_lt _ (by decide)
    have hd : t.val / 14 < 4 := by omega
    rw [iblk_eq m c t y (ix4 ⟨8 * (t.val / 14) + (y 0).val, by omega⟩ ⟨16 * (t.val % 14) + (y 1).val, by omega⟩
      ⟨(y 2).val, y2⟩ ⟨(y 3).val, y3⟩) rfl rfl rfl rfl]
    refine h _ ?_ ?_ ?_ ?_
    · show 8 * (t.val / 14) + (y 0).val = _; rw [e0]
    · exact (Fin.ext rfl : (⟨(y 3).val, y3⟩ : Fin 128) = y 3).trans e3
    · show _ ≤ 16 * (t.val % 14) + (y 1).val; omega
    · show 16 * (t.val % 14) + (y 1).val < _; omega

/-- At a point of height step 0 the buffer's entry `(p, ch)` is the least upper bound of the array's entries of
    batch row `8 (t / 14) + p`, channel `ch` and the first 16 image rows. -/
theorem reset_le_iff (c : Dev nD) (t : Fin cfg0.N) (h0 : t.val % 14 = 0) (p : Fin 8) (ch : Fin 128) (z : EReal) :
    (outsAt m c t.val t.isLt (ix2 p ch) : EReal) ≤ z
      ↔ Below m c (8 * (t.val / 14) + p.val) ch 0 (16 * (t.val % 14) + 16) z := by
  rw [outsAt_reset m c t h0, outReset_eq, blockMax_le_iff (iblk m c 0 t) p ch z, ← BlockBelow, block_below m c t p ch z, h0]

/-- At a point of a later height step, given that reading of what the point before left, the buffer's entry is the
    least upper bound over the image rows up to and including this step's. -/
theorem fold_le_iff (c : Dev nD) (t : Fin cfg0.N) (h0 : ¬ t.val % 14 = 0)
    (ih : ∀ (p : Fin 8) (ch : Fin 128) (z : EReal),
      (outsAt m c (t.val - 1) (Nat.lt_of_le_of_lt (Nat.sub_le _ _) t.isLt) (ix2 p ch) : EReal) ≤ z
        ↔ Below m c (8 * ((t.val - 1) / 14) + p.val) ch 0 (16 * ((t.val - 1) % 14) + 16) z)
    (p : Fin 8) (ch : Fin 128) (z : EReal) :
    (outsAt m c t.val t.isLt (ix2 p ch) : EReal) ≤ z
      ↔ Below m c (8 * (t.val / 14) + p.val) ch 0 (16 * (t.val % 14) + 16) z := by
  rw [outsAt_fold m c t h0, outFold_eq]
  show max (outsAt m c (t.val - 1) _ (ix2 p ch) : EReal) (blockMax (iblk m c 0 t) (ix2 p ch)) ≤ z ↔ _
  rw [max_le_iff, ih p ch z, blockMax_le_iff (iblk m c 0 t) p ch z, ← BlockBelow, block_below m c t p ch z]
  have e1 : (t.val - 1) / 14 = t.val / 14 := by omega
  have e2 : 16 * ((t.val - 1) % 14) + 16 = 16 * (t.val % 14) := by omega
  rw [e1, e2]
  exact (below_split m c _ ch 0 (16 * (t.val % 14)) (16 * (t.val % 14) + 16) z (Nat.zero_le _) (Nat.le_add_right _ _)).symm

/-- After every point the buffer's entry `(p, ch)` is the least upper bound of the array's entries of the point's
    batch tile, row `p`, channel `ch`, over the image rows of the height steps up to the point's: by induction on
    the point. -/
theorem outsAt_le_iff (c : Dev nD) : ∀ (n : ℕ) (hn : n < cfg0.N) (p : Fin 8) (ch : Fin 128) (z : EReal),
    (outsAt m c n hn (ix2 p ch) : EReal) ≤ z ↔ Below m c (8 * (n / 14) + p.val) ch 0 (16 * (n % 14) + 16) z
  | 0, hn => reset_le_iff m c ⟨0, hn⟩ rfl
  | n + 1, hn => by
    by_cases h0 : (n + 1) % 14 = 0
    · exact reset_le_iff m c ⟨n + 1, hn⟩ h0
    · exact fold_le_iff m c ⟨n + 1, hn⟩ h0 (fun p ch z => outsAt_le_iff c n (Nat.lt_of_succ_lt hn) p ch z)

end Cert.KernelIdeal.Pool

end
-- ==== Proof.PoolFinal.lean ====
/-
  The result array: the output window is written back at the last height step of each batch tile, when the staging
  buffer holds the maximum over all 224 image rows; those blocks tile the 32 × 128 result, so each of its entries
  `(b, c)` is the least upper bound of the input's entries `(b, ·, ·, c)`.
-/
import proofs.«171184_j54056458387499_2_alg».proof.Proof.PoolArray
import Idealize.ShloMosaic.Lib.Pipeline.Value

set_option maxRecDepth 16384

noncomputable section

namespace Cert.KernelIdeal.Pool

open Cert.KernelIdeal Cert.KernelIdeal.Gen
open Idealize.ShloMosaic Idealize.ShloMosaic.TcCoe Idealize.SL.Sem
open Idealize.ShloMosaic.Pipeline (Dat)

open Idealize.ShloMosaic.ValueIdx

variable (m : (ℓ : Loc nD τ sig) → Buf (Elt Ideal) ℓ) (ρ : Dev nD → PrngReg)

/-- The output window's block index at point `t`: batch tile `t / 14`, all channels; its blocks are uncut. -/
theorem index1 : ∀ t : Fin cfg0.N, win0_1.index t 0 = t.val / 14 ∧ win0_1.index t 1 = 0 :=
  (by decide +kernel : ∀ t : Fin grid0.N, win0_1.index t 0 = t.val / 14 ∧ win0_1.index t 1 = 0)
theorem xsize1 : ∀ t : Fin cfg0.N, win0_1.xsize (grid0.coords t) 0 = 8 ∧ win0_1.xsize (grid0.coords t) 1 = 128 :=
  (by decide +kernel : ∀ t : Fin grid0.N, win0_1.xsize (grid0.coords t) 0 = 8 ∧ win0_1.xsize (grid0.coords t) 1 = 128)

/-- `v` is the least upper bound of the input's entries of batch row `j₀` and channel `j₁`: max-pooling's entry `j`. -/
def IsPool (c : Dev nD) (j : S32x128.Idx) (v : EReal) : Prop :=
  ∀ z : EReal, v ≤ z ↔ ∀ i : S32x224x224x128.Idx, i 0 = j 0 → i 3 = j 1 → arr m c i ≤ z

/-- At the last height step of a batch tile the buffer's entry `(p, ch)` is pooling's entry at batch row
    `8 (t / 14) + p`: all 224 image rows have been folded in. -/
theorem outsAt_isPool (c : Dev nD) (t : Fin cfg0.N) (h13 : t.val % 14 = 13) (p : Fin 8) (ch : Fin 128) (j : S32x128.Idx)
    (h0 : (j 0).val = 8 * (t.val / 14) + p.val) (h1 : (j 1).val = ch.val) :
    IsPool m c j (outsAt m c t.val t.isLt (ix2 p ch)) := by
  intro z
  rw [outsAt_le_iff m c t.val t.isLt p ch z, h13]
  constructor
  · intro h i e0 e3
    have i1 : (i 1).val < 224 := (i 1).isLt
    exact h i (by rw [e0, h0]) (Fin.ext (by rw [e3, h1])) (Nat.zero_le _) (by omega)
  · intro h i e0 e3 _ _
    exact h i (Fin.ext (by rw [e0, h0])) (Fin.ext (by rw [e3, h1]))

/-- What a write-back point writes: every entry of the block it writes is pooling's entry at the array index it
    lands on. -/
theorem flushed_isPool (c : Dev nD) (t : Fin cfg0.N) (hf : (cfg0.win 1).flush t = true)
    (y : ((cfg0.win 1).xblock (cfg0.grid.coords t)).Idx) :
    IsPool m c (((cfg0.win 1).blk t).view.emb y) ((dats m 0 c).flushed 1 t y) := by
  have h13 : t.val % 14 = 13 := (flush0_1 t).mp hf
  obtain ⟨e0, e1⟩ := index1 t
  have y0 : (y 0).val < 8 := lt_of_lt_of_eq (y 0).isLt (xsize1 t).1
  have y1 : (y 1).val < 128 := lt_of_lt_of_eq (y 1).isLt (xsize1 t).2
  have hx : (cfg0.win 1).xinj (cfg0.grid.coords t) y = ix2 (⟨(y 0).val, y0⟩ : Fin 8) (⟨(y 1).val, y1⟩ : Fin 128) :=
    funext fun a => by match a with | ⟨0, _⟩ => rfl | ⟨1, _⟩ => rfl
  show IsPool m c _ ((dats m 0 c).after 1 t ((cfg0.win 1).xinj (cfg0.grid.coords t) y))
  rw [after1, hx]
  refine outsAt_isPool m c t h13 ⟨(y 0).val, y0⟩ ⟨(y 1).val, y1⟩ _ ?_ ?_
  · show win0_1.index t 0 * 8 + 1 * (y 0).val = 8 * (t.val / 14) + (y 0).val; rw [e0]; omega
  · show win0_1.index t 1 * 128 + 1 * (y 1).val = (y 1).val; rw [e1]; omega

/-- The write-back points' blocks tile the result array: row `b` lies in the block of batch tile `b / 8`, written
    back at that tile's last height step. -/
theorem cover1 (j : S32x128.Idx) :
    ∃ t : Fin cfg0.N, (cfg0.win 1).flush t = true ∧ j ∈ ((cfg0.win 1).blk t).view.set := by
  have j0 : (j 0).val < 32 := (j 0).isLt
  have j1 : (j 1).val < 128 := (j 1).isLt
  have hN : cfg0.N = 56 := N_0
  have ht : 14 * ((j 0).val / 8) + 13 < cfg0.N := by rw [hN]; omega
  obtain ⟨e0, e1⟩ := index1 ⟨14 * ((j 0).val / 8) + 13, ht⟩
  obtain ⟨s0, s1⟩ := xsize1 ⟨14 * ((j 0).val / 8) + 13, ht⟩
  refine ⟨⟨14 * ((j 0).val / 8) + 13, ht⟩, (flush0_1 _).mpr (by show (14 * ((j 0).val / 8) + 13) % 14 = 13; omega), ?_⟩
  show j ∈ ((View.whole main_v0).slice (win0_1.rect ⟨14 * ((j 0).val / 8) + 13, ht⟩)).set
  rw [View.set_slice_whole, Rect.mem_set_unit]
  intro a
  match a with
  | ⟨0, _⟩ =>
    show win0_1.index ⟨14 * ((j 0).val / 8) + 13, ht⟩ 0 * 8 ≤ (j 0 : Nat)
      ∧ (j 0 : Nat) < win0_1.index ⟨14 * ((j 0).val / 8) + 13, ht⟩ 0 * 8 + win0_1.xsize (grid0.coords ⟨14 * ((j 0).val / 8) + 13, ht⟩) 0
    rw [e0, s0]; show (14 * ((j 0).val / 8) + 13) / 14 * 8 ≤ _ ∧ _ < (14 * ((j 0).val / 8) + 13) / 14 * 8 + 8; omega
  | ⟨1, _⟩ =>
    show win0_1.index ⟨14 * ((j 0).val / 8) + 13, ht⟩ 1 * 128 ≤ (j 1 : Nat)
      ∧ (j 1 : Nat) < win0_1.index ⟨14 * ((j 0).val / 8) + 13, ht⟩ 1 * 128 + win0_1.xsize (grid0.coords ⟨14 * ((j 0).val / 8) + 13, ht⟩) 1
    rw [e1, s1]; omega

/-- So every entry of the result array after the run is pooling's entry. -/
theorem final_isPool (c : Dev nD) (j : S32x128.Idx) : IsPool m c j ((dats m 0 c).arrAt 1 cfg0.N j) :=
  (dats m 0 c).arrAt_forall_of_cover 1 (fun j v => IsPool m c j v) (fun t hf y => flushed_isPool m c t hf y) cover1 j

/-- The kernel's run, read: the result array at what the write-backs leave, the argument unchanged. -/
theorem run : θ_run defs (onTc (τ := τ) (main (F := Ideal))) ⟨m, fun _ => 0, ρ⟩ fun r => ∀ c : Dev nD,
      r.2.mem ((c.tc : Thread nD τ).loc main_v0) = (dats m 0 c).arrAt 1 cfg0.N
      ∧ r.2.mem ((c.tc : Thread nD τ).loc main_arg0) = m ((c.tc : Thread nD τ).loc main_arg0) :=
  (θ_run defs _ _).mono (fun _ h c => ⟨(h c).1 1, ((h c).1 0).trans ((dats m 0 c).arrAt_in 0 rfl _)⟩) (run_main m ρ)

end Cert.KernelIdeal.Pool

end
-- ==== Proof.PoolRefMax.lean ====
import proofs.«171184_j54056458387499_2_alg».proof.Proof.Gen.ReferenceIdeal.Read
import Idealize.ShloMosaic.Lib.ValueIdx
import Idealize.ShloMosaic.PureOps.Ideal.Laws
noncomputable section
open Idealize.ShloMosaic Idealize.ShloMosaic.ValueIdx
namespace Cert.ReferenceIdeal.PoolMath
open Cert.ReferenceIdeal Cert.ReferenceIdeal.Gen
/-- At the extended reals the reference's entry (b, c) is the least upper bound of the input's entries of batch row b and channel c. -/
theorem refMax_le_iff (x : (⟨S32x224x224x128, .f32⟩ : BufTy).Contents (Elt Ideal)) (j : S32x128.Idx) (z : EReal) :
    (Cert.ReferenceIdeal.Read.val_main_v0 (F := Ideal) x j : EReal) ≤ z
      ↔ ∀ i : S32x224x224x128.Idx, i 0 = j 0 → i 3 = j 1 → (x i : EReal) ≤ z := by
  unfold Cert.ReferenceIdeal.Read.val_main_v0
  rw [Host.reduce_eq_fold]
  -- the fold starts at the bit pattern of −∞, which denotes ⊥
  have h0 : (Read.val_main_cst (F := Ideal) (Shape.Idx.first h_S_) : EReal) = ⊥ := by
    show Ideal.ofBits .f32 0xFF800000#32 = ⊥
    simp [Ideal.ofBits, Ideal.ieee]
  -- an index is folded exactly when it agrees with j on the two kept axes, 0 and 3
  have hmem : ∀ i : S32x224x224x128.Idx,
      reducesTo_S32x224x224x128_S32x128_d1_2.drop i = j ↔ (i 0 = j 0 ∧ i 3 = j 1) := by
    intro i
    have e0 := reducesTo_S32x224x224x128_S32x128_d1_2.drop_apply_val_of_eq i 0 0
    have e1 := reducesTo_S32x224x224x128_S32x128_d1_2.drop_apply_val_of_eq i 1 3
    constructor
    · intro h
      subst h
      exact ⟨Fin.ext e0.symm, Fin.ext e1.symm⟩
    · rintro ⟨h0', h1'⟩
      funext b
      apply Fin.ext
      fin_cases b
      · exact e0.trans (congrArg Fin.val h0')
      · exact e1.trans (congrArg Fin.val h1')
  show Finset.fold max (Read.val_main_cst (F := Ideal) (Shape.Idx.first h_S_) : EReal) (fun i => (x i : EReal)) _ ≤ z ↔ _
  rw [h0, Finset.fold_max_le]
  simp only [bot_le, true_and, Finset.mem_filter, Finset.mem_univ, hmem, and_imp]

end Cert.ReferenceIdeal.PoolMath
end
-- ==== Proof.lean ====
/-
  Max-pooling over the two image axes: `out[b, c] = max over (h, w) of x[b, h, w, c]` for `x` of shape
  32 × 224 × 224 × 128.

  The kernel walks a 4 × 14 grid, batch tiles of 8 rows by height steps of 16 image rows. At each point it loads the
  sixteen image rows of its 8 × 16 × 224 × 128 block one at a time, takes each one's maximum over the 224 columns and
  folds the sixteen results into a running maximum started at −∞; at height step 0 it overwrites the 8 × 128 output
  block with that, at every later step it folds it into what the block holds; the block is written back after the
  fourteenth step. The reference is one reduction with a maximum body over both image axes, from −∞.

  Over the extended reals a maximum is a least upper bound, and a fold of `max` from −∞ over a finite family is the
  least upper bound of the family: `fold ≤ z` exactly when every member is `≤ z`. Read that way, the block's maximum
  bounds exactly the block's entries of one batch row and channel; a block is one batch tile and one band of sixteen
  image rows of the array; the bands of the fourteen height steps make up all 224 image rows; and the written-back
  blocks tile the result. So entry `(b, c)` of the kernel's result is the least upper bound of `x[b, ·, ·, c]`, which
  is what the reference's reduction is, and two least upper bounds of one set agree.

  The frames: each program's run is followed to its end with the argument array untouched — the kernel's by running
  its body once per case of its two branches (which are decided by the height step alone) at a generic grid point.
-/
import proofs.«171184_j54056458387499_2_alg».proof.Defs
import proofs.«171184_j54056458387499_2_alg».proof.Proof.Gen.Kernel
import proofs.«171184_j54056458387499_2_alg».proof.Proof.Gen.KernelIdeal
import proofs.«171184_j54056458387499_2_alg».proof.Proof.Gen.ReferenceIdeal
import proofs.«171184_j54056458387499_2_alg».proof.Proof.Gen.Pre_finite_inputs
import proofs.«171184_j54056458387499_2_alg».proof.Proof.Gen.ReferenceIdeal.Run
import proofs.«171184_j54056458387499_2_alg».proof.Proof.Gen.ReferenceIdeal.Read
import proofs.«171184_j54056458387499_2_alg».proof.Proof.KPoolFrame
import proofs.«171184_j54056458387499_2_alg».proof.Proof.PoolFinal
import proofs.«171184_j54056458387499_2_alg».proof.Proof.PoolRefMax

noncomputable section

namespace Cert.Proof

open Idealize.ShloMosaic Idealize.SL.Sem

/-- The word-level kernel runs to the end, faults nowhere and leaves its argument as it found it. -/
theorem frame_k : Cert.frame_Kernel := fun m ρ _ => Cert.Kernel.Pool.frame m ρ

/-- So does the kernel read at the extended reals. -/
theorem frame_ki : Cert.frame_KernelIdeal := fun m ρ _ => Cert.KernelIdeal.Pool.frame m ρ

/-- The reference is two host operations; its run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- Both programs end with the same 32 × 128 array: entry `(b, c)` of the kernel's result is the least upper bound of
    the input's entries `(b, ·, ·, c)` (the running maximum over sixteen image rows per grid point, folded over the
    fourteen height steps of a batch tile), and so is the reference's one reduction over both image axes; two least
    upper bounds of one set are equal. Only the order of the extended reals is used, so infinite entries are no
    exception and the precondition is not needed. -/
theorem algebraic : Cert.algebraic_KernelIdeal_ReferenceIdeal := by
  intro m ρ m' ρ' _ hagree
  refine ⟨fun c => (Cert.KernelIdeal.Pool.dats m 0 c).arrAt 1 Cert.KernelIdeal.cfg0.N, Cert.KernelIdeal.Pool.run m ρ, ?_⟩
  refine (θ_run Cert.ReferenceIdeal.defs _ _).mono (fun _ h c => ⟨(h c).1.trans ?_, (h c).2⟩)
    (Cert.ReferenceIdeal.Value.run (F := Ideal) m' ρ')
  rw [hagree c, Cert.ReferenceIdeal.Read.val_main_v0_eq]
  funext j
  refine eq_of_forall_ge_iff (α := EReal) fun z => ?_
  rw [Cert.ReferenceIdeal.PoolMath.refMax_le_iff]
  exact (Cert.KernelIdeal.Pool.final_isPool m c j z).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
